-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S8192x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S524288x128 .f32) (main_arg1 : FVec F S128x128 .f32) (main_arg2 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩

abbrev nBuf : Space → Nat
  | .hbm => 7
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .bf16⟩
  | .hbm, ⟨5, _⟩ => ⟨S1x128, .f32⟩
  | .hbm, ⟨6, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S524288x128.size a
  hwx0_3 : ∀ i : grid0.Coords, EltTy.bits .f32 = 32 ∨ (Rect.block (s := S524288x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S524288x128, .f32⟩
  | .hbm, ⟨4, _⟩ => ⟨S128x128, .f32⟩
  | .hbm, ⟨5, _⟩ => ⟨S524288x128, .f32⟩
  | .hbm, ⟨6, _⟩ => ⟨S1x128, .f32⟩
  | .hbm, ⟨7, _⟩ => ⟨S524288x128, .f32⟩
  | .hbm, ⟨8, _⟩ => ⟨S524288x128, .f32⟩
  | .hbm, ⟨9, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.Layer.lean ====
/-
  A dense layer on signs, at the extended reals.

  For a matrix `x` of 524288 rows and 128 columns, a square matrix `w` of order 128 and a vector `b` of 128 entries,
  entry `(p, n)` of the layer is

      tanh ( Σ_k sign x(p, k) · sign w(k, n) + b(n) ),

  the sign of an extended real being -1, 0 or 1 by the order (the infinities have the signs ∓1) and `tanh` taking the
  infinities to ∓1. Every term of the sum is one of -1, 0, 1, so the sum is an integer between -128 and 128 whatever
  `x` and `w` hold; nothing below uses that: the two programs compared write the very same sum.
-/
import Idealize.ShloMosaic.Lib.ValueIdx
import Idealize.ShloMosaic.PureOps.Ideal

noncomputable section

namespace Cert.SignLayer

open Idealize.ShloMosaic Idealize.ShloMosaic.ValueIdx

/-- Entry `(p, n)` of the layer: `tanh` of row `p` of the signs of `x` against column `n` of the signs of `w`, plus `b(n)`. -/
def entry (x : (⟨2, ![524288, 128]⟩ : Shape).Idx → EReal) (w : (⟨2, ![128, 128]⟩ : Shape).Idx → EReal)
    (b : (⟨1, ![128]⟩ : Shape).Idx → EReal) (p : Fin 524288) (n : Fin 128) : EReal :=
  Ideal.tanh ((∑ k : Fin 128, Ideal.sign (x (ix2 p k)) * Ideal.sign (w (ix2 k n))) + b (ix1 n))

/-- The layer as one array: at an index, the entry at its two coordinates. -/
def layer (x : (⟨2, ![524288, 128]⟩ : Shape).Idx → EReal) (w : (⟨2, ![128, 128]⟩ : Shape).Idx → EReal)
    (b : (⟨1, ![128]⟩ : Shape).Idx → EReal) : (⟨2, ![524288, 128]⟩ : Shape).Idx → EReal :=
  fun i => entry x w b (i 0) (i 1)

/-- At `(p, n)` the array reads the entry. -/
theorem layer_ix2 (x : (⟨2, ![524288, 128]⟩ : Shape).Idx → EReal) (w : (⟨2, ![128, 128]⟩ : Shape).Idx → EReal)
    (b : (⟨1, ![128]⟩ : Shape).Idx → EReal) (p : Fin 524288) (n : Fin 128) :
    layer x w b (ix2 p n) = entry x w b p n := rfl

end Cert.SignLayer

end
-- ==== Proof.RefLayer.lean ====
/-
  The reference computes the layer.

  Its last stage is `tanh` of the sum of two arrays: the product of the signs of `x` with the signs of `w` over the
  shared axis, which at `(p, n)` is Σ_k sign x(p, k) · sign w(k, n), and the vector `b` laid as one row and repeated
  down the rows, which at `(p, n)` is `b(n)`. So at every index it is the layer's entry.
-/
import proofs.«129217_j36867999269443_2_alg».proof.Proof.Gen.ReferenceIdeal.Read
import proofs.«129217_j36867999269443_2_alg».proof.Proof.Layer

noncomputable section

namespace Cert.SignLayer.Ref

open Idealize.ShloMosaic Idealize.ShloMosaic.ValueIdx Cert.ReferenceIdeal Cert.ReferenceIdeal.Read

/-- The reference's result, as a function of its three arguments, is the layer. -/
theorem result_eq (x0 : FVec Ideal S524288x128 .f32) (x1 : FVec Ideal S128x128 .f32) (x2 : FVec Ideal S128 .f32) :
    val_main_v6 (F := Ideal) x0 x1 x2 = layer x0 x1 x2 := by
  funext i
  have el : ∀ k : Fin 128, lidx_main_v2 i k = ix2 (i 0) k := fun k => funext fun a => by
    match a with
    | ⟨0, _⟩ => rfl
    | ⟨1, _⟩ => rfl
  have er : ∀ k : Fin 128, ridx_main_v2 i k = ix2 k (i 1) := fun k => funext fun a => by
    match a with
    | ⟨0, _⟩ => rfl
    | ⟨1, _⟩ => rfl
  have eb : idx_main_v3 (idx_main_v4 i) = ix1 (i 1) := funext fun a => by
    match a with
    | ⟨0, _⟩ => rfl
  rw [val_main_v6_apply, val_main_v5_apply, val_main_v2_apply, val_main_v4_apply, val_main_v3_apply]
  simp only [val_main_v0_apply, val_main_v1_apply, el, er, eb]
  rfl

end Cert.SignLayer.Ref

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«129217_j36867999269443_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.Stored.lean ====
/-
  What the kernel's body stores, read at one entry.

  The body takes a block `X` of 8192 rows of `x`, the matrix `S` it is handed (the signs of `w`, computed before the
  launch) and the bias as one row `B`. It forms the sign of every entry of `X` — written as "where |a| > 0, the number
  ±1 with the sign of `a`, else `a` itself", which is the sign at every extended real, zero and the infinities included —,
  multiplies by `S` over the shared axis starting from zero, adds `B` to every row and applies `tanh`. Changing the
  number format of the signs changes nothing at the extended reals. So entry `(p, n)` of what it stores is

      tanh ( Σ_k sign X(p, k) · S(k, n) + B(0, n) ).
-/
import proofs.«129217_j36867999269443_2_alg».proof.Proof.Gen.KernelIdeal.Skeleton
import proofs.«129217_j36867999269443_2_alg».proof.Proof.LibMatmulRows
import Idealize.ShloMosaic.Lib.ValueLayout
import Idealize.ShloMosaic.Lib.Pipeline.Value
import Idealize.ShloMosaic.PureOps.Ideal.Laws

noncomputable section

namespace Cert.SignLayer.Body

open Idealize.ShloMosaic Idealize.ShloMosaic.ValueIdx Cert.KernelIdeal Cert.KernelIdeal.Gen

/-- Entry `(p, n)` of the stored block: `tanh` of row `p` of the block's signs against column `n` of the matrix, plus
    the bias row's entry `n`. -/
theorem stored_apply (v0 : Vec Ideal S8192x128 .f32) (v12 : Vec Ideal S128x128 .bf16) (v15 : Vec Ideal S1x128 .f32)
    (p : Fin 8192) (n : Fin 128) :
    k0_pay1 (F := Ideal) v0 v12 v15 (ix2 p n)
      = Ideal.tanh ((∑ k : Fin 128, Ideal.sign (v0 (ix2 p k)) * v12 (ix2 k n)) + v15 (ix2 (0 : Fin 1) n)) := by
  unfold k0_pay1
  refine congrArg Ideal.tanh ?_
  refine congrArg₂ (· + ·) ?_ ?_
  · refine (Cert.LibMatmulRows.matmul_rows_apply dot_S8192x128_S128x128_S8192x128_1_0_0_1_n_n rfl rfl rfl rfl rfl rfl
      _ _ p n).trans ?_
    refine Finset.sum_congr rfl fun k _ => ?_
    refine congrArg₂ (· * ·) ?_ ?_
    · exact Ideal.jnp_sign_eq_sign_f32 (v0 (ix2 p k))
    · exact congrFun (shapeCast_self v12 shapeCasts_S128x128_S128x128) (ix2 k n)
  · exact (broadcastTo_1b_ab_apply _ broadcasts_S1x128_S8192x128 p n).trans
      (congrFun (shapeCast_self v15 shapeCasts_S1x128_S1x128) _)

end Cert.SignLayer.Body

end
-- ==== Proof.BlockReads.lean ====
/-
  What each window hands the body at a grid point.

  The grid has 64 points. At point `t` the first window's block is rows `8192·t … 8192·t + 8191` of `x`; the second
  window's block is the whole matrix of signs of `w`, which the program computes before the launch (the change of number
  format that follows is the identity at the extended reals); the third window's block is the whole bias laid as one
  row. The output window's block at `t` is again rows `8192·t … 8192·t + 8191`.
-/
import proofs.«129217_j36867999269443_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.SignLayer.Blocks

open Cert.KernelIdeal Cert.KernelIdeal.Gen

variable (m : (ℓ : Loc nD τ sig) → Buf (Elt Ideal) ℓ)

/-- The block index of each window at point `t`: the point's number along the rows for `x` and for the output, zero
    everywhere else (decided over the 64 points). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point's number is below 64. -/
theorem point_lt (t : Fin cfg0.N) : t.val < 64 := lt_of_lt_of_eq t.isLt N_0

/-- Entry `(p, k)` of the first window's block at point `t` is `x` at row `8192·t + p`, column `k`. -/
theorem rows_apply (c : Dev nD) (t : Fin cfg0.N) (p : Fin 8192) (k : Fin 128) (hp : 8192 * t.val + p.val < 524288) :
    (iblk m c 0 t : Vec Ideal S8192x128 .f32) (ix2 p k)
      = (m ((c : Thread nD τ).loc main_arg0) : S524288x128.Idx → EReal) (ix2 ⟨8192 * t.val + p.val, hp⟩ k) := by
  obtain ⟨e0, e1, -⟩ := block_index t
  unfold iblk
  rw [View.read_apply]
  show V m c main_arg0 _ = _
  rw [V_main_arg0]
  congr 1
  funext a
  apply Fin.ext
  match a with
  | ⟨0, _⟩ => show win0_0.index t (0 : Fin 2) * 8192 + 1 * p.val = 8192 * t.val + p.val; omega
  | ⟨1, _⟩ => show win0_0.index t (1 : Fin 2) * 128 + 1 * k.val = k.val; omega

/-- Entry `(k, n)` of the second window's block, at any point, is the sign of `w(k, n)`. -/
theorem signs_apply (c : Dev nD) (t : Fin cfg0.N) (k n : Fin 128) :
    (iblk m c 1 t : Vec Ideal S128x128 .bf16) (ix2 k n)
      = Ideal.sign ((m ((c : Thread nD τ).loc main_arg1) : S128x128.Idx → EReal) (ix2 k n)) := by
  obtain ⟨-, -, e0, e1, -⟩ := block_index t
  have e : (V m c main_v1 : S128x128.Idx → EReal)
      = (truncf .bf16 (Host.sign (m ((c : Thread nD τ).loc main_arg1) : FVec Ideal S128x128 .f32)) bitsLt_bf16_f32 : FVec Ideal S128x128 .bf16) := by
    dsimp only [V, hostOps0]; after_results <;> rfl
  unfold iblk
  rw [View.read_apply]
  show V m c main_v1 _ = _
  rw [e]
  show Ideal.sign ((m ((c : Thread nD τ).loc main_arg1) : S128x128.Idx → EReal) _) = _
  congr 2
  funext a
  apply Fin.ext
  match a with
  | ⟨0, _⟩ => show win0_1.index t (0 : Fin 2) * 128 + 1 * k.val = k.val; omega
  | ⟨1, _⟩ => show win0_1.index t (1 : Fin 2) * 128 + 1 * n.val = n.val; omega

/-- Entry `(0, n)` of the third window's block, at any point, is `b(n)`. -/
theorem bias_apply (c : Dev nD) (t : Fin cfg0.N) (n : Fin 128) :
    (iblk m c 2 t : Vec Ideal S1x128 .f32) (ix2 (0 : Fin 1) n)
      = (m ((c : Thread nD τ).loc main_arg2) : S128.Idx → EReal) (ix1 n) := by
  obtain ⟨-, -, -, -, e0, e1, -⟩ := block_index t
  have e : (V m c main_v2 : S1x128.Idx → EReal)
      = shapeCast S1x128 (m ((c : Thread nD τ).loc main_arg2) : S128.Idx → EReal) shapeCasts_S128_S1x128 := by
    dsimp only [V, hostOps0]; after_results <;> rfl
  have hemb : ((cfg0.win 2).blk t).view.emb (ix2 (0 : Fin 1) n) = ix2 (0 : Fin 1) n := by
    funext a
    apply Fin.ext
    match a with
    | ⟨0, _⟩ => show win0_2.index t (0 : Fin 2) * 1 + 1 * 0 = 0; omega
    | ⟨1, _⟩ => show win0_2.index t (1 : Fin 2) * 128 + 1 * n.val = n.val; omega
  unfold iblk
  rw [View.read_apply]
  show V m c main_v2 _ = _
  rw [e, hemb]
  exact shapeCast_a_1a_apply _ shapeCasts_S128_S1x128 (0 : Fin 1) n

/-- Entry `(p, n)` of the output window's block at point `t` sits at row `8192·t + p`, column `n` of the result. -/
theorem out_emb (t : Fin cfg0.N) (p : Fin 8192) (n : Fin 128) (hp : 8192 * t.val + p.val < 524288) :
    ((cfg0.win 3).blk t).view.emb (ix2 p n) = ix2 ⟨8192 * t.val + p.val, hp⟩ n := by
  obtain ⟨-, -, -, -, -, -, e0, e1⟩ := block_index t
  funext a
  apply Fin.ext
  match a with
  | ⟨0, _⟩ => show win0_3.index t (0 : Fin 2) * 8192 + 1 * p.val = 8192 * t.val + p.val; omega
  | ⟨1, _⟩ => show win0_3.index t (1 : Fin 2) * 128 + 1 * n.val = n.val; omega

end Cert.SignLayer.Blocks

end
-- ==== Proof.Result.lean ====
/-
  The kernel's result array is the layer.

  At point `t` the body is handed rows `8192·t …` of `x`, the signs of `w` and the bias row, and what it stores at
  `(p, n)` is tanh ( Σ_k sign x(8192·t + p, k) · sign w(k, n) + b(n) ): the layer's entry at row `8192·t + p`, which is
  where the output window puts it. Row `r` of the result lies in the block of point `r / 8192`, so the 64 blocks
  cover the array, and the array ends holding the layer.
-/
import proofs.«129217_j36867999269443_2_alg».proof.Proof.Gen.KernelIdeal.Value
import proofs.«129217_j36867999269443_2_alg».proof.Proof.Layer
import proofs.«129217_j36867999269443_2_alg».proof.Proof.Stored
import proofs.«129217_j36867999269443_2_alg».proof.Proof.BlockReads

noncomputable section

open Idealize.ShloMosaic Idealize.ShloMosaic.TcCoe Idealize.SL.Sem Idealize.ShloMosaic.ValueIdx
open Idealize.ShloMosaic.Pipeline (Dat)

namespace Cert.SignLayer.Blocks

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by
  match a with
  | ⟨0, _⟩ => rfl
  | ⟨1, _⟩ => rfl

/-- The layer of the three argument arrays as launched. -/
abbrev result (c : Dev nD) : Buf (Elt Ideal) ((c : Thread nD τ).loc main_v3) :=
  layer (m ((c : Thread nD τ).loc main_arg0)) (m ((c : Thread nD τ).loc main_arg1)) (m ((c : Thread nD τ).loc main_arg2))

/-- What point `t` writes back is block `t` of the layer. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S8192x128) hz, View.ld_unit_zero (S := S128x128) hz, View.ld_unit_zero (S := S1x128) hz]
  funext j
  obtain ⟨p, n, rfl⟩ : ∃ (p : Fin 8192) (n : Fin 128), j = ix2 p n := ⟨j 0, j 1, eq_ix2 (n0 := 8192) (n1 := 128) j⟩
  have ht := point_lt t
  have hp : 8192 * t.val + p.val < 524288 := by have := p.isLt; omega
  show k0_pay1 (iblk m c 0 t) (iblk m c 1 t) (iblk m c 2 t) (ix2 p n) = result m c (((cfg0.win 3).blk t).view.emb (ix2 p n))
  rw [out_emb t p n hp]
  refine (Cert.SignLayer.Body.stored_apply _ _ _ p n).trans ?_
  show _ = entry _ _ _ ⟨8192 * t.val + p.val, hp⟩ n
  unfold entry
  exact congrArg Ideal.tanh (congrArg₂ (· + ·)
    (Finset.sum_congr rfl fun k _ => congrArg₂ (· * ·) (congrArg Ideal.sign (rows_apply m c t p k hp)) (signs_apply m c t k n))
    (bias_apply m c t n))

/-- An index of the result is in point `t`'s block iff each coordinate is in the block's range on its axis. -/
theorem mem_blk (t : Fin cfg0.N) (i : S524288x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v3).slice (win0_3.rect t)).set ↔ _
  rw [View.set_slice_whole, Rect.mem_set_unit]
  exact Iff.rfl

/-- Every index of the result is in the block of the point its row divided by 8192 names. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  obtain ⟨t, ht⟩ : ∃ t : Fin cfg0.N, t.val = (i 0).val / 8192 :=
    ⟨⟨(i 0).val / 8192, lt_of_lt_of_eq (by omega : (i 0).val / 8192 < 64) N_0.symm⟩, rfl⟩
  obtain ⟨-, -, -, -, -, -, e0, e1⟩ := block_index t
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- The result array after the run is the layer of the arguments. -/
theorem final (c : Dev nD) : (dats m 0 c).arrAt 3 cfg0.N = result m c :=
  (dats m 0 c).arrAt_eq_of_cover 3 (result m c) (fun t _ => flushed_eq m c t) cover

/-- The kernel's run: it ends with the result array at the layer of the arguments, and the arguments as launched. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.SignLayer.Blocks

end
-- ==== Proof.lean ====
/-
  A dense layer on signs: the kernel against its reference, at the extended reals.

  Both programs compute, for a matrix `x` of 524288 rows and 128 columns, a square matrix `w` of order 128 and a vector
  `b` of 128 entries,

      out(p, n) = tanh ( Σ_k sign x(p, k) · sign w(k, n) + b(n) ).

  The reference takes the signs of both matrices, multiplies them over the shared axis, adds `b` to every row and
  applies `tanh`. The kernel takes the signs of `w` before its launch and hands them to every grid point; point `t`
  of 64 reads rows `8192·t … 8192·t + 8191` of `x`, forms their signs (as "±1 with the sign of `a` where |a| > 0, else
  `a`", which is the sign of every extended real), multiplies by the signs of `w` starting from zero, adds the bias
  row to every row, applies `tanh`, and writes the same rows of the result. At the extended reals a change of number
  format is the identity and the two products are the same sum over `k`, so the two results agree entry by entry,
  whatever the arguments hold: finiteness of the inputs is never used.

  The frames of the two kernel programs and the reference's run are the generated ones; that the sign-bit reading of
  "negative" is the comparison with zero at the extended reals is the library's statement for that rewrite.
-/
import proofs.«129217_j36867999269443_2_alg».proof.Defs
import proofs.«129217_j36867999269443_2_alg».proof.Proof.Gen.Kernel
import proofs.«129217_j36867999269443_2_alg».proof.Proof.Gen.Kernel.Frame
import proofs.«129217_j36867999269443_2_alg».proof.Proof.Gen.KernelIdeal
import proofs.«129217_j36867999269443_2_alg».proof.Proof.Gen.KernelIdeal.Frame
import proofs.«129217_j36867999269443_2_alg».proof.Proof.Gen.KernelIdeal.Value
import proofs.«129217_j36867999269443_2_alg».proof.Proof.Gen.ReferenceIdeal
import proofs.«129217_j36867999269443_2_alg».proof.Proof.Gen.ReferenceIdeal.Run
import proofs.«129217_j36867999269443_2_alg».proof.Proof.Gen.ReferenceIdeal.Read
import proofs.«129217_j36867999269443_2_alg».proof.Proof.Gen.Pre_finite_inputs
import proofs.«129217_j36867999269443_2_alg».proof.Proof.RefLayer
import proofs.«129217_j36867999269443_2_alg».proof.Proof.Result
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading "negative" off the sign bit is, at the extended reals, comparing with zero: -1 where `a < 0`, else 1. -/
theorem preserves : Cert.preserves_Kernel_KernelIdeal :=
  IdealRules.sign_bit.statement Cert.KernelIdeal.S8192x128 .f32

/-- From memories that agree on the three arguments both programs end with the layer of those arguments in their
    result arrays. -/
theorem algebraic : Cert.algebraic_KernelIdeal_ReferenceIdeal := by
  intro m ρ m' ρ' _ hagree
  refine ⟨fun c => Cert.SignLayer.Blocks.result m c, Cert.SignLayer.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.SignLayer.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
